-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S2048x1 : Shape := ⟨2, ![2048, 1]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024x1024 .f32) (main_arg3 : FVec F S2048x1 .f32) (main_arg4 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_v13 main_v16
-- ==== Kernel.lean ====
abbrev S4096x1024 : Shape := ⟨2, ![4096, 1024]⟩
abbrev S1024x1024 : Shape := ⟨2, ![1024, 1024]⟩
abbrev S2048x1 : Shape := ⟨2, ![2048, 1]⟩
abbrev S1 : Shape := ⟨1, ![1]⟩
abbrev S1024x1 : Shape := ⟨2, ![1024, 1]⟩
abbrev S4096x1 : Shape := ⟨2, ![4096, 1]⟩
abbrev S1x4096 : Shape := ⟨2, ![1, 4096]⟩
abbrev S4096x4096 : Shape := ⟨2, ![4096, 4096]⟩
abbrev S1x1024 : Shape := ⟨2, ![1, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S2048x1, .f32⟩
  | .hbm, ⟨4, _⟩ => ⟨S1, .f32⟩
  | .hbm, ⟨5, _⟩ => ⟨S1024x1, .f32⟩
  | .hbm, ⟨6, _⟩ => ⟨S1024x1, .f32⟩
  | .hbm, ⟨7, _⟩ => ⟨S4096x1, .f32⟩
  | .hbm, ⟨8, _⟩ => ⟨S4096x1, .f32⟩
  | .hbm, ⟨9, _⟩ => ⟨S1x4096, .f32⟩
  | .hbm, ⟨10, _⟩ => ⟨S4096x1024, .bf16⟩
  | .hbm, ⟨11, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1, .f32⟩
  | .local _ .vmem, ⟨6, _⟩ => ⟨S1024x1, .f32⟩
  | .local _ .vmem, ⟨7, _⟩ => ⟨S1x1024, .f32⟩
  | .local _ .vmem, ⟨8, _⟩ => ⟨S1x1024, .f32⟩
  | .local _ .vmem, ⟨9, _⟩ => ⟨S1, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S2048x1_S1024x1_0_0 : S2048x1.Slices ![0, 0] S1024x1
  slices_S2048x1_S1024x1_1024_0 : S2048x1.Slices ![1024, 0] S1024x1
  transposes_S4096x1_S1x4096_1_0 : S4096x1.Transposes [1, 0] S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1_S1_0 : ∀ a, (![0] : Fin 1 → Nat) a + S1.size a ≤ S1.size a
  h_S1 : 0 < S1.numel
  inpos_S1_p0 : ∀ a, (![0] : Fin 1 → Nat) a < S1.size a
  dot_S4096x1024_S1024x1_S4096x1_1_0_0_1_n_n_wf : DotDims.WF S4096x1024 S1024x1 S4096x1 [1] [0] [0] [1] [] []
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .f32 = 32 ∨ (Rect.block (s := S4096x4096) S1024x1024.size (cc0_transform_6 i) (hinb0_6 i)).WholeWords (EltTy.packing .f32)

variable [Facts₀]

def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S2048x1 : Shape := ⟨2, ![2048, 1]⟩
abbrev S1 : Shape := ⟨1, ![1]⟩
abbrev S1024x4096 : Shape := ⟨2, ![1024, 4096]⟩
abbrev S4096x4096 : Shape := ⟨2, ![4096, 4096]⟩
abbrev S1024x1 : Shape := ⟨2, ![1024, 1]⟩
abbrev S4096x1 : Shape := ⟨2, ![4096, 1]⟩
abbrev S1x4096 : Shape := ⟨2, ![1, 4096]⟩
abbrev S1x1 : Shape := ⟨2, ![1, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S2048x1, .f32⟩
  | .hbm, ⟨4, _⟩ => ⟨S1, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S1024x1, .f32⟩
  | .hbm, ⟨9, _⟩ => ⟨S1024x1, .f32⟩
  | .hbm, ⟨10, _⟩ => ⟨S4096x1, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S1x1, .f32⟩
  | .hbm, ⟨18, _⟩ => ⟨S4096x4096, .f32⟩
  | .hbm, ⟨19, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S4096x1024_S1024x4096_1_0 : S4096x1024.Transposes [1, 0] S1024x4096
  slices_S2048x1_S1024x1_0_0 : S2048x1.Slices ![0, 0] S1024x1
  slices_S2048x1_S1024x1_1024_0 : S2048x1.Slices ![1024, 0] S1024x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x1024_S1024x1_S4096x1_1_0_0_1_n_n_wf : DotDims.WF S4096x1024 S1024x1 S4096x1 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.Spec.lean ====
/-
  The biaffine score, as ONE function of the five argument arrays, index by index, on the extended reals.

  With T, A : [4096, 1024] (target and argument spans), W : [1024, 1024], U : [2048, 1] and b : [1], entry (p, q) of
  the [4096, 4096] result is

      ( Σ_k (T·W)[p, k] · A[q, k]  +  ( Σ_h T[p, h] · U[h, 0]  +  Σ_h A[q, h] · U[1024 + h, 0] ) )  +  b[0],

  where (T·W)[p, k] = Σ_h T[p, h] · W[h, k]. The bilinear term pairs row p of T·W with row q of A; the two linear terms
  use the upper and the lower half of U; the additions are grouped exactly as written (nothing is re-associated or
  distributed, so no entry has to be finite for the two programs to agree).
-/
import Idealize.ShloMosaic.PureOps.Ideal
import Idealize.ShloMosaic.Lib.ValueIdx

noncomputable section

namespace Cert.Biaffine

open Idealize.ShloMosaic Idealize.ShloMosaic.ValueIdx

/-- An `[a, b]` matrix of extended reals. -/
abbrev Mat (a b : ℕ) : Type := (⟨2, ![a, b]⟩ : Shape).Idx → EReal

/-- Row `h` of the upper half of `U` (rows 0 … 1023). -/
abbrev upper (h : Fin 1024) : Fin 2048 := ⟨h.val, by have := h.isLt; omega⟩

/-- Row `h` of the lower half of `U` (rows 1024 … 2047). -/
abbrev lower (h : Fin 1024) : Fin 2048 := ⟨1024 + h.val, by have := h.isLt; omega⟩

/-- The projected target spans: `(T·W)[p, k] = Σ_h T[p, h] · W[h, k]`. -/
def proj (T : Mat 4096 1024) (W : Mat 1024 1024) (p : Fin 4096) (k : Fin 1024) : EReal :=
  ∑ h : Fin 1024, T (ix2 p h) * W (ix2 h k)

/-- The bilinear term: row `p` of `T·W` against row `q` of `A`. -/
def bilinear (T A : Mat 4096 1024) (W : Mat 1024 1024) (p q : Fin 4096) : EReal :=
  ∑ k : Fin 1024, proj T W p k * A (ix2 q k)

/-- The target's linear term: row `p` of `T` against the upper half of `U`. -/
def targetTerm (T : Mat 4096 1024) (U : Mat 2048 1) (p : Fin 4096) : EReal :=
  ∑ h : Fin 1024, T (ix2 p h) * U (ix2 (upper h) (0 : Fin 1))

/-- The argument's linear term: row `q` of `A` against the lower half of `U`. -/
def argTerm (A : Mat 4096 1024) (U : Mat 2048 1) (q : Fin 4096) : EReal :=
  ∑ h : Fin 1024, A (ix2 q h) * U (ix2 (lower h) (0 : Fin 1))

/-- The score at row `p`, column `q`. -/
def scoreAt (T A : Mat 4096 1024) (W : Mat 1024 1024) (U : Mat 2048 1) (b : (⟨1, ![1]⟩ : Shape).Idx → EReal)
    (p q : Fin 4096) : EReal :=
  (bilinear T A W p q + (targetTerm T U p + argTerm A U q)) + b (ix1 (0 : Fin 1))

/-- The whole `[4096, 4096]` score array. -/
def score (T A : Mat 4096 1024) (W : Mat 1024 1024) (U : Mat 2048 1) (b : (⟨1, ![1]⟩ : Shape).Idx → EReal) :
    Mat 4096 4096 :=
  fun i => scoreAt T A W U b (i 0) (i 1)

theorem score_ix2 (T A : Mat 4096 1024) (W : Mat 1024 1024) (U : Mat 2048 1) (b : (⟨1, ![1]⟩ : Shape).Idx → EReal)
    (p q : Fin 4096) : score T A W U b (ix2 p q) = scoreAt T A W U b p q := rfl

end Cert.Biaffine

end
-- ==== Proof.RefScore.lean ====
/-
  The reference program computes the biaffine score.

  Read one operation at a time, entry (p, q) of the reference's result is
      (dot(dot(T, W), Aᵀ)[p, q] + (dot(T, U[:1024])[p, 0] + dot(A, U[1024:])ᵀ[0, q])) + b[0];
  a host `dot_general` at the ideal values is the plain sum of products over its contracted axis, the transposes
  swap the two coordinates (so `Aᵀ[k, q] = A[q, k]`), the slices of `U` read rows `h` and `1024 + h`, and the
  broadcasts repeat a column along its row, a row along its column, and the one entry of `b` everywhere. That is
  `Cert.Biaffine.score`, summand by summand.
-/
import proofs.«151508_j24129126269150_2_alg».proof.Proof.Gen.ReferenceIdeal.Read
import proofs.«151508_j24129126269150_2_alg».proof.Proof.Spec

noncomputable section

namespace Cert.ReferenceIdeal.RefValue

open Cert.ReferenceIdeal Cert.ReferenceIdeal.Read Idealize.ShloMosaic Idealize.ShloMosaic.ValueIdx Cert.Biaffine

/-! ### The composed index maps, by coordinates -/

theorem proj_lhs (p q : Fin 4096) (k h : Fin 1024) :
    lidx_main_v0 (lidx_main_v2 (ix2 p q) k) h = ix2 p h :=
  funext fun a => Fin.ext (by match a with | ⟨0, _⟩ => rfl | ⟨1, _⟩ => rfl)

theorem proj_rhs (p q : Fin 4096) (k h : Fin 1024) :
    ridx_main_v0 (lidx_main_v2 (ix2 p q) k) h = ix2 h k :=
  funext fun a => Fin.ext (by match a with | ⟨0, _⟩ => rfl | ⟨1, _⟩ => rfl)

theorem arg_transposed (p q : Fin 4096) (k : Fin 1024) :
    idx_main_v1 (ridx_main_v2 (ix2 p q) k) = ix2 q k :=
  funext fun a => Fin.ext (by match a with | ⟨0, _⟩ => rfl | ⟨1, _⟩ => rfl)

theorem target_lhs (p q : Fin 4096) (k : Fin 1024) :
    lidx_main_v5 (idx_main_v8 (ix2 p q)) k = ix2 p k :=
  funext fun a => Fin.ext (by match a with | ⟨0, _⟩ => rfl | ⟨1, _⟩ => rfl)

theorem target_rhs (p q : Fin 4096) (k : Fin 1024) :
    idx_main_v3 (ridx_main_v5 (idx_main_v8 (ix2 p q)) k) = ix2 (upper k) (0 : Fin 1) :=
  funext fun a => Fin.ext (by match a with | ⟨0, _⟩ => rfl | ⟨1, _⟩ => rfl)

theorem arg_lhs (p q : Fin 4096) (k : Fin 1024) :
    lidx_main_v6 (idx_main_v7 (idx_main_v9 (ix2 p q))) k = ix2 q k :=
  funext fun a => Fin.ext (by match a with | ⟨0, _⟩ => rfl | ⟨1, _⟩ => rfl)

theorem arg_rhs (p q : Fin 4096) (k : Fin 1024) :
    idx_main_v4 (ridx_main_v6 (idx_main_v7 (idx_main_v9 (ix2 p q))) k) = ix2 (lower k) (0 : Fin 1) :=
  funext fun a => Fin.ext (by match a with | ⟨0, _⟩ => rfl | ⟨1, _⟩ => rfl)

theorem bias_idx (p q : Fin 4096) : idx_main_v12 (idx_main_v13 (ix2 p q)) = ix1 (0 : Fin 1) :=
  funext fun a => Fin.ext (by match a with | ⟨0, _⟩ => rfl)

/-! ### The reference's last stage is the score -/

/-- The reference's result, as a function of the five argument arrays at the ideal values, is the biaffine score. -/
theorem result_eq_score (x0 x1 : FVec Ideal S4096x1024 .f32) (x2 : FVec Ideal S1024x1024 .f32)
    (x3 : FVec Ideal S2048x1 .f32) (x4 : FVec Ideal S1 .f32) :
    val_main_v14 (F := Ideal) x0 x1 x2 x3 x4 = score x0 x1 x2 x3 x4 := by
  funext i
  obtain ⟨p, q, rfl⟩ : ∃ (p q : Fin 4096), i = ix2 p q := ⟨i 0, i 1, eq_ix2 i⟩
  rw [score_ix2, val_main_v14_apply, val_main_v11_apply, val_main_v13_apply, val_main_v12_apply, val_main_v2_apply,
    val_main_v10_apply, val_main_v8_apply, val_main_v9_apply, val_main_v5_apply, val_main_v7_apply, val_main_v6_apply]
  simp only [val_main_v0_apply, val_main_v1_apply, val_main_v3_apply, val_main_v4_apply, proj_lhs, proj_rhs,
    arg_transposed, target_lhs, target_rhs, arg_lhs, arg_rhs, bias_idx]
  rfl

end Cert.ReferenceIdeal.RefValue

end
-- ==== Proof.Pieces.lean ====
/-
  What one run of the kernel body leaves behind, as values.

  The body has two cases. At the FIRST column tile of a row tile (grid coordinate 1 equal to 0) it multiplies the
  target-span tile by `W`, stores the product into the scratch, loads the scratch back and computes the output tile
  from it. At every OTHER column tile it skips the product and computes the output tile from what the scratch already
  holds. In both cases the output tile is written by one store that covers the whole tile, and in the first case so is
  the scratch, so what each buffer ends holding is that one store's payload; a load that follows a covering store of
  the same buffer reads the store's payload.

  Stated for any float values: nothing here looks inside the arithmetic.
-/
import proofs.«151508_j24129126269150_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The zero offsets of a rank-2 whole-tile access. -/
theorem hz2 : (![0, 0] : Fin 2 → Nat) = fun _ => 0 := funext fun a => by fin_cases a <;> rfl

/-- The zero offset of a rank-1 whole-vector access. -/
theorem hz1 : (![0] : Fin 1 → Nat) = fun _ => 0 := funext fun a => by fin_cases a; rfl

/-- At a row tile's first column tile the body stores the projected tile into the scratch: its one covering store's
    payload over the two loaded tiles. -/
theorem scratch_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S1024x1024 .f32) (harg8 : arg8.IsWhole) (arg9 : Memref sig .tc .vmem S1024x1024 .bf16) (harg9 : arg9.IsWhole) (hc0 : cond0_0 i) (x0 : Vec F S1024x1024 .f32) (x1 : Vec F S1024x1024 .f32) (x2 : Vec F S1024x1024 .bf16) (x3 : Vec F S1024x1 .f32) (x4 : Vec F S1x1024 .f32) (x5 : Vec F S1 .f32) :
    sout0_A_0 c i arg2 harg2 arg3 harg3 arg4 harg4 arg5 harg5 arg6 harg6 arg7 harg7 arg8 harg8 arg9 harg9 hc0 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S1024x1024) hz2]
  simp only [View.readAt_eq_ld, harg2.read_unread, harg3.read_unread, View.ld_unit_zero (S := S1024x1024) hz2]

/-- … and then loads the scratch back: the output tile is the body's arithmetic over the freshly stored projected
    tile (the load is covered by that one store, so it reads the store's payload). -/
theorem out_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S1024x1024 .f32) (harg8 : arg8.IsWhole) (arg9 : Memref sig .tc .vmem S1024x1024 .bf16) (harg9 : arg9.IsWhole) (hc0 : cond0_0 i) (x0 : Vec F S1024x1024 .f32) (x1 : Vec F S1024x1024 .f32) (x2 : Vec F S1024x1024 .bf16) (x3 : Vec F S1024x1 .f32) (x4 : Vec F S1x1024 .f32) (x5 : Vec F S1 .f32) :
    out0_A_6 c i arg2 harg2 arg3 harg3 arg4 harg4 arg5 harg5 arg6 harg6 arg7 harg7 arg8 harg8 arg9 harg9 hc0 x0 x1 x2 x3 x4 x5 = k0_pay2 (k0_pay1 x0 x1) x2 x3 x4 x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S1024x1024) hz2, View.readCov_unit_zero (S := S1024x1024) _ hz2]
  simp only [View.readAt_eq_ld, harg2.read_unread, harg3.read_unread, harg4.read_unread, harg5.read_unread, harg6.read_unread,
    harg7.read_unread, View.ld_unit_zero (S := S1024x1024) hz2, View.ld_unit_zero (S := S1024x1) hz2,
    View.ld_unit_zero (S := S1x1024) hz2, View.ld_unit_zero (S := S1) hz1]

/-- At the other column tiles the body leaves the scratch alone and computes the output tile from what it holds. -/
theorem out_later (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (x0 : Vec F S1024x1024 .f32) (x1 : Vec F S1024x1024 .f32) (x2 : Vec F S1024x1024 .bf16) (x3 : Vec F S1024x1 .f32) (x4 : Vec F S1x1024 .f32) (x5 : Vec F S1 .f32) (xs0 : Vec F S1024x1024 .bf16) :
    out0_B_6 c i arg2 harg2 arg3 harg3 arg4 harg4 arg5 harg5 arg6 harg6 arg7 harg7 arg8 harg8 arg9 harg9 hc0 x0 x1 x2 x3 x4 x5 xs0 = k0_pay2 xs0 x2 x3 x4 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  rw [View.canon_unit_zero (S := S1024x1024) hz2]
  simp only [View.readAt_eq_ld, harg9.read_unread, harg4.read_unread, harg5.read_unread, harg6.read_unread, harg7.read_unread,
    View.ld_unit_zero (S := S1024x1024) hz2, View.ld_unit_zero (S := S1024x1) hz2, View.ld_unit_zero (S := S1x1024) hz2,
    View.ld_unit_zero (S := S1) hz1]

end Cert.KernelIdeal.Pieces

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibSumContr.lean ====
/-
  A sum over the contraction index of a matrix product that contracts ONE axis, re-indexed by that axis's coordinate.

  A `tpu.matmul` or a host `dot_general` at the ideal values, read at an output index `j`, is a sum over the
  product's contraction index `q` of `l (lhsIdx j q) * r (rhsIdx j q)`. When one axis is contracted, `q` is just a
  coordinate `k : Fin n`; if at coordinate `k` the two operand indices are `L k` and `R k`, the sum is
  `Σ_k l (L k) * r (R k)` (any dimension numbers, any shapes, values in any commutative additive monoid with a product).
-/
import Idealize.ShloMosaic.Lib.ValueIdx

namespace Cert.LibSumContr

open Idealize.ShloMosaic Idealize.ShloMosaic.ValueIdx

/-- The sum over a one-axis contraction index is the sum over that axis's coordinate of the products of the two
    operands at the indices the coordinate selects. -/
theorem sum_contr {M : Type*} [AddCommMonoid M] [Mul M] {sl sr so : Shape} (D : DotDims sl sr so) (n : ℕ)
    (hr : D.contr.rank = 1) (hs : D.contr.size ⟨0, by omega⟩ = n) (l : sl.Idx → M) (r : sr.Idx → M) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    ∑ q : D.contr.Idx, l (D.lhsIdx j q) * r (D.rhsIdx j q) = ∑ k : Fin n, l (L k) * r (R k) := by
  rw [← Equiv.sum_comp (contrEquiv1 D n hr hs).symm]
  exact Finset.sum_congr rfl fun k _ => by rw [hL k, hR k]

end Cert.LibSumContr
-- ==== Proof.Payloads.lean ====
/-
  The kernel body's arithmetic, read at an index of a tile, at the ideal values.

  • The projected tile: the product of a target-span tile `x` [1024, 1024] with `W` [1024, 1024] (a matrix product into
    a zero accumulator; the changes of float format around it are the identity on the extended reals) holds, at
    (p, k), `Σ_h x[p, h] · w[h, k]`.
  • The output tile: from the projected tile `tw`, an argument-span tile `a` (contracted along its SECOND axis, so no
    transpose is formed), a column `tp` [1024, 1] spread along rows, a row `ap` [1, 1024] spread along columns and the
    one entry of `b` spread everywhere, it holds at (p, q)
        ( Σ_k tw[p, k] · a[q, k] + ( tp[p, 0] + ap[0, q] ) ) + b[0].
-/
import proofs.«151508_j24129126269150_2_alg».proof.Proof.Gen.KernelIdeal.Skeleton
import proofs.«151508_j24129126269150_2_alg».proof.Proof.LibKeepdims
import proofs.«151508_j24129126269150_2_alg».proof.Proof.LibRowBroadcast
import proofs.«151508_j24129126269150_2_alg».proof.Proof.LibSumContr
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.LibSumContr

/-! ### The plain product: left axis 1 against right axis 0 -/

theorem plain_lhs0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem plain_lhs1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q

theorem plain_rhs0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q

theorem plain_rhs1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (p, k) of a plain product of two [1024, 1024] tiles into a zero accumulator. -/
theorem plain_matmul_apply (l r : FVec Ideal S1024x1024 .bf16) (p k : Fin 1024) :
    FloatOps.matmul dot_S1024x1024_S1024x1024_S1024x1024_1_0_0_1_n_n none l r (constant S1024x1024 .f32 0x00000000#32) (ix2 p k)
      = ∑ h : Fin 1024, l (ix2 p h) * r (ix2 h k) := by
  rw [Ideal.matmul_constant_zero_apply]
  refine sum_contr dot_S1024x1024_S1024x1024_S1024x1024_1_0_0_1_n_n 1024 rfl rfl l r (ix2 p k) (fun h => ix2 p h) (fun h => ix2 h k) (fun h => ?_) (fun h => ?_)
  · have hk := contrEquiv1_symm_val dot_S1024x1024_S1024x1024_S1024x1024_1_0_0_1_n_n 1024 rfl rfl h
    exact funext fun a => Fin.ext (by
      match a with
      | ⟨0, _⟩ => exact plain_lhs0 _ _
      | ⟨1, _⟩ => exact (plain_lhs1 _ _).trans hk)
  · have hk := contrEquiv1_symm_val dot_S1024x1024_S1024x1024_S1024x1024_1_0_0_1_n_n 1024 rfl rfl h
    exact funext fun a => Fin.ext (by
      match a with
      | ⟨0, _⟩ => exact (plain_rhs0 _ _).trans hk
      | ⟨1, _⟩ => exact plain_rhs1 _ _)

/-! ### The product against a transposed right operand: left axis 1 against right axis 1 -/

theorem rowrow_lhs0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

theorem rowrow_lhs1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q

theorem rowrow_rhs0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

theorem rowrow_rhs1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Entry (p, q) of the product of a tile with the TRANSPOSE of another, into a zero accumulator: row `p` of the
    left against row `q` of the right. -/
theorem rowrow_matmul_apply (l r : FVec Ideal S1024x1024 .bf16) (p q : Fin 1024) :
    FloatOps.matmul dot_S1024x1024_S1024x1024_S1024x1024_1_1_0_0_n_n none l r (constant S1024x1024 .f32 0x00000000#32) (ix2 p q)
      = ∑ k : Fin 1024, l (ix2 p k) * r (ix2 q k) := by
  rw [Ideal.matmul_constant_zero_apply]
  refine sum_contr dot_S1024x1024_S1024x1024_S1024x1024_1_1_0_0_n_n 1024 rfl rfl l r (ix2 p q) (fun k => ix2 p k) (fun k => ix2 q k) (fun k => ?_) (fun k => ?_)
  · have hk := contrEquiv1_symm_val dot_S1024x1024_S1024x1024_S1024x1024_1_1_0_0_n_n 1024 rfl rfl k
    exact funext fun a => Fin.ext (by
      match a with
      | ⟨0, _⟩ => exact rowrow_lhs0 _ _
      | ⟨1, _⟩ => exact (rowrow_lhs1 _ _).trans hk)
  · have hk := contrEquiv1_symm_val dot_S1024x1024_S1024x1024_S1024x1024_1_1_0_0_n_n 1024 rfl rfl k
    exact funext fun a => Fin.ext (by
      match a with
      | ⟨0, _⟩ => exact rowrow_rhs0 _ _
      | ⟨1, _⟩ => exact (rowrow_rhs1 _ _).trans hk)

/-! ### The two payloads -/

/-- The projected tile at (p, k). -/
theorem projected_apply (x w : Vec Ideal S1024x1024 .f32) (p k : Fin 1024) :
    k0_pay1 (F := Ideal) x w (ix2 p k) = ∑ h : Fin 1024, x (ix2 p h) * w (ix2 h k) := by
  unfold k0_pay1
  refine (congrFun (shapeCast_self _ shapeCasts_S1024x1024_S1024x1024) (ix2 p k)).trans ?_
  exact plain_matmul_apply (truncf (F := Ideal) (φ := .f32) .bf16 x bitsLt_bf16_f32)
    (truncf (F := Ideal) (φ := .f32) .bf16 w bitsLt_bf16_f32) p k

/-- The output tile at (p, q). -/
theorem output_apply (tw a : Vec Ideal S1024x1024 .bf16) (tp : Vec Ideal S1024x1 .f32) (ap : Vec Ideal S1x1024 .f32)
    (b : Vec Ideal S1 .f32) (p q : Fin 1024) :
    k0_pay2 (F := Ideal) tw a tp ap b (ix2 p q)
      = ((∑ k : Fin 1024, tw (ix2 p k) * a (ix2 q k)) + (tp (ix2 p (0 : Fin 1)) + ap (ix2 (0 : Fin 1) q)))
          + b (ix1 (0 : Fin 1)) := by
  unfold k0_pay2
  show (FloatOps.matmul (F := Ideal) (φ₁ := .bf16) (φ₂ := .bf16) dot_S1024x1024_S1024x1024_S1024x1024_1_1_0_0_n_n none tw (shapeCast S1024x1024 a shapeCasts_S1024x1024_S1024x1024)
          (constant (F := Ideal) S1024x1024 .f32 0x00000000#32) (ix2 p q)
        + (broadcastTo S1024x1024 (shapeCast S1024x1 tp shapeCasts_S1024x1_S1024x1) broadcasts_S1024x1_S1024x1024 (ix2 p q)
          + broadcastTo S1024x1024 (shapeCast S1x1024 ap shapeCasts_S1x1024_S1x1024) broadcasts_S1x1024_S1024x1024 (ix2 p q)))
      + extractAt ![0] b inpos_S1_p0 = _
  rw [shapeCast_self, shapeCast_self, shapeCast_self, rowrow_matmul_apply,
    Cert.LibKeepdims.broadcastTo_a1_ab_apply tp broadcasts_S1024x1_S1024x1024 p q (0 : Fin 1),
    Cert.LibRowBroadcast.broadcastTo_1b_ab_apply ap broadcasts_S1x1024_S1024x1024 p q (0 : Fin 1)]
  congr 1
  unfold extractAt
  exact congrArg b (funext fun d => Fin.ext (by match d with | ⟨0, _⟩ => rfl))

end Cert.KernelIdeal.Payload

end
-- ==== Proof.Tiles.lean ====
/-
  The tiles a grid point works on.

  The grid is 4 × 4: point `t` (0 … 15, row-major) is row tile `t / 4` and column tile `t % 4`. At that point
  • the target-span tile is rows `1024·(t/4) + p` of `T`, and the column tile of `T·U[:1024]` the same rows;
  • the argument-span tile is rows `1024·(t%4) + q` of (the copy of) `A`, and the row tile of `(A·U[1024:])ᵀ` the same
    columns;
  • `W` and `b` are whole, the same at every point;
  • the output tile is rows `1024·(t/4) + p`, columns `1024·(t%4) + q` of the result.
  A block's coordinate on an axis is always (block index) × (block extent) + (coordinate inside the block), and the
  sixteen block indices of each window are decided once.
-/
import proofs.«151508_j24129126269150_2_alg».proof.Proof.Gen.KernelIdeal.Frame
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx

/-- Row `p` of the row tile of point `t`. -/
def rowOf (t : Fin cfg0.N) (p : Fin 1024) : Fin 4096 :=
  ⟨1024 * (t.val / 4) + p.val, by
    have h1 := t.isLt; have hN : cfg0.N = 16 := N_0; have h2 := p.isLt; omega⟩

/-- Column `q` of the column tile of point `t`. -/
def colOf (t : Fin cfg0.N) (q : Fin 1024) : Fin 4096 :=
  ⟨1024 * (t.val % 4) + q.val, by have h2 := q.isLt; omega⟩

theorem rowOf_val (t : Fin cfg0.N) (p : Fin 1024) : (rowOf t p).val = 1024 * (t.val / 4) + p.val := rfl
theorem colOf_val (t : Fin cfg0.N) (q : Fin 1024) : (colOf t q).val = 1024 * (t.val % 4) + q.val := rfl

/-- The block indices of the seven windows at every grid point. -/
theorem block_indices : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0
    ∧ win0_4.index t (0 : Fin 2) = 0 ∧ win0_4.index t (1 : Fin 2) = t.val % 4
    ∧ win0_5.index t (0 : Fin 1) = 0
    ∧ win0_6.index t (0 : Fin 2) = t.val / 4 ∧ win0_6.index t (1 : Fin 2) = t.val % 4 :=
  (by decide +kernel : ∀ t : Fin grid0.N, _)

variable {F : FTy → Type} [FloatOps F]
variable (m : (ℓ : Loc nD τ sig) → Buf (Elt F) ℓ)

/-- The target-span tile at (p, h) is `T` at row `1024·(t/4) + p`, column `h`. -/
theorem target_tile (c : Dev nD) (t : Fin cfg0.N) (p h : Fin 1024) :
    (iblk m c 0 t : Vec F S1024x1024 .f32) (ix2 p h) = m ((c : Thread nD τ).loc main_arg0) (ix2 (rowOf t p) h) := by
  have hi := block_indices t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = 1024 * (t.val / 4) + p.val; rw [hi.1]; omega
  | ⟨1, _⟩ => show win0_0.index t (1 : Fin 2) * 1024 + 1 * h.val = h.val; rw [hi.2.1]; omega

/-- The tile of `W` is all of `W`. -/
theorem weight_tile (c : Dev nD) (t : Fin cfg0.N) (h k : Fin 1024) :
    (iblk m c 1 t : Vec F S1024x1024 .f32) (ix2 h k) = m ((c : Thread nD τ).loc main_arg2) (ix2 h k) := by
  have hi := block_indices t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t (0 : Fin 2) * 1024 + 1 * h.val = h.val; rw [hi.2.2.1]; omega
  | ⟨1, _⟩ => show win0_1.index t (1 : Fin 2) * 1024 + 1 * k.val = k.val; rw [hi.2.2.2.1]; omega

/-- The argument-span tile at (q, k) is the region's copy of `A` at row `1024·(t%4) + q`, column `k`. -/
theorem argument_tile (c : Dev nD) (t : Fin cfg0.N) (q k : Fin 1024) :
    (iblk m c 2 t : Vec F S1024x1024 .bf16) (ix2 q k) = V m c main_v5 (ix2 (colOf t q) k) := by
  have hi := block_indices t
  unfold iblk
  rw [View.read_apply]
  show V m c main_v5 _ = _
  refine congrArg (V m c main_v5) (funext fun a => Fin.ext ?_)
  match a with
  | ⟨0, _⟩ => show win0_2.index t (0 : Fin 2) * 1024 + 1 * q.val = 1024 * (t.val % 4) + q.val; rw [hi.2.2.2.2.1]; omega
  | ⟨1, _⟩ => show win0_2.index t (1 : Fin 2) * 1024 + 1 * k.val = k.val; rw [hi.2.2.2.2.2.1]; omega

/-- The target's column tile at (p, 0) is the region's column at row `1024·(t/4) + p`. -/
theorem target_column_tile (c : Dev nD) (t : Fin cfg0.N) (p : Fin 1024) :
    (iblk m c 3 t : Vec F S1024x1 .f32) (ix2 p (0 : Fin 1)) = V m c main_v2 (ix2 (rowOf t p) (0 : Fin 1)) := by
  have hi := block_indices t
  unfold iblk
  rw [View.read_apply]
  show V m c main_v2 _ = _
  refine congrArg (V m c main_v2) (funext fun a => Fin.ext ?_)
  match a with
  | ⟨0, _⟩ => show win0_3.index t (0 : Fin 2) * 1024 + 1 * p.val = 1024 * (t.val / 4) + p.val; rw [hi.2.2.2.2.2.2.1]; omega
  | ⟨1, _⟩ => show win0_3.index t (1 : Fin 2) * 1 + 1 * 0 = 0; rw [hi.2.2.2.2.2.2.2.1]

/-- The argument's row tile at (0, q) is the region's row at column `1024·(t%4) + q`. -/
theorem argument_row_tile (c : Dev nD) (t : Fin cfg0.N) (q : Fin 1024) :
    (iblk m c 4 t : Vec F S1x1024 .f32) (ix2 (0 : Fin 1) q) = V m c main_v4 (ix2 (0 : Fin 1) (colOf t q)) := by
  have hi := block_indices t
  unfold iblk
  rw [View.read_apply]
  show V m c main_v4 _ = _
  refine congrArg (V m c main_v4) (funext fun a => Fin.ext ?_)
  match a with
  | ⟨0, _⟩ => show win0_4.index t (0 : Fin 2) * 1 + 1 * 0 = 0; rw [hi.2.2.2.2.2.2.2.2.1]
  | ⟨1, _⟩ => show win0_4.index t (1 : Fin 2) * 1024 + 1 * q.val = 1024 * (t.val % 4) + q.val; rw [hi.2.2.2.2.2.2.2.2.2.1]; omega

/-- The tile of `b` is `b`. -/
theorem bias_tile (c : Dev nD) (t : Fin cfg0.N) :
    (iblk m c 5 t : Vec F S1 .f32) (ix1 (0 : Fin 1)) = m ((c : Thread nD τ).loc main_arg4) (ix1 (0 : Fin 1)) := by
  have hi := block_indices t
  unfold iblk
  rw [View.read_apply]
  show V m c main_arg4 _ = _
  rw [V_main_arg4]
  refine congrArg (m ((c : Thread nD τ).loc main_arg4)) (funext fun a => Fin.ext ?_)
  match a with
  | ⟨0, _⟩ => show win0_5.index t (0 : Fin 1) * 1 + 1 * 0 = 0; rw [hi.2.2.2.2.2.2.2.2.2.2.1]

end Cert.KernelIdeal.Tiles

end
-- ==== Proof.HostInputs.lean ====
/-
  What the region finds in the three arrays the host computes before it.

  Before the kernel is launched the host forms, from the argument arrays T, A : [4096, 1024] and U : [2048, 1]:
  • the column `T · U[:1024]` [4096, 1] — entry (p, 0) is `Σ_h T[p, h] · U[h, 0]`, the target's linear term;
  • the row `(A · U[1024:])ᵀ` [1, 4096] — entry (0, q) is `Σ_h A[q, h] · U[1024 + h, 0]`, the argument's linear term;
  • a copy of `A` in a narrower float format — on the extended reals the copy IS `A`.
  A host `dot_general` at the ideal values is the plain sum of products over its contracted axis; a slice reads its
  operand at the offset row; the transpose of a column swaps its two coordinates.
-/
import proofs.«151508_j24129126269150_2_alg».proof.Proof.Gen.KernelIdeal.Frame
import proofs.«151508_j24129126269150_2_alg».proof.Proof.Spec
import proofs.«151508_j24129126269150_2_alg».proof.Proof.LibSumContr
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostInputs

open Cert.KernelIdeal Cert.KernelIdeal.Gen Idealize.ShloMosaic Idealize.ShloMosaic.TcCoe Idealize.SL.Sem
open Idealize.ShloMosaic.ValueIdx Cert.Biaffine Cert.LibSumContr

/-! ### The host's matrix-vector product, read at an entry of its column -/

theorem hostdot_lhs0 (j : S4096x1.Idx) (q : dot_S4096x1024_S1024x1_S4096x1_1_0_0_1_n_n.contr.Idx) :
    (dot_S4096x1024_S1024x1_S4096x1_1_0_0_1_n_n.lhsIdx j q 0).val = (j 0).val := by
  unfold DotDims.lhsIdx
  rw [dif_neg (show ¬(0 : Fin S4096x1024.rank) ∈ dot_S4096x1024_S1024x1_S4096x1_1_0_0_1_n_n.lhsBatch by decide), dif_pos (show (0 : Fin S4096x1024.rank) ∈ dot_S4096x1024_S1024x1_S4096x1_1_0_0_1_n_n.lhsNonContracting by decide)]
  rfl

theorem hostdot_lhs1 (j : S4096x1.Idx) (q : dot_S4096x1024_S1024x1_S4096x1_1_0_0_1_n_n.contr.Idx) :
    (dot_S4096x1024_S1024x1_S4096x1_1_0_0_1_n_n.lhsIdx j q 1).val = (q ⟨0, by decide⟩).val :=
  dot_S4096x1024_S1024x1_S4096x1_1_0_0_1_n_n.lhsIdx_val_of_single rfl j q

theorem hostdot_rhs0 (j : S4096x1.Idx) (q : dot_S4096x1024_S1024x1_S4096x1_1_0_0_1_n_n.contr.Idx) :
    (dot_S4096x1024_S1024x1_S4096x1_1_0_0_1_n_n.rhsIdx j q 0).val = (q ⟨0, by decide⟩).val :=
  dot_S4096x1024_S1024x1_S4096x1_1_0_0_1_n_n.rhsIdx_val_of_single rfl j q

theorem hostdot_rhs1 (j : S4096x1.Idx) (q : dot_S4096x1024_S1024x1_S4096x1_1_0_0_1_n_n.contr.Idx) :
    (dot_S4096x1024_S1024x1_S4096x1_1_0_0_1_n_n.rhsIdx j q 1).val = (j 1).val := by
  unfold DotDims.rhsIdx
  rw [dif_neg (show ¬(1 : Fin S1024x1.rank) ∈ dot_S4096x1024_S1024x1_S4096x1_1_0_0_1_n_n.rhsBatch by decide), dif_pos (show (1 : Fin S1024x1.rank) ∈ dot_S4096x1024_S1024x1_S4096x1_1_0_0_1_n_n.rhsNonContracting by decide)]
  rfl

/-- Entry (p, u) of a [4096, 1024] matrix times a [1024, 1] column. -/
theorem hostdot_apply (l : FVec Ideal S4096x1024 .f32) (r : FVec Ideal S1024x1 .f32) (p : Fin 4096) (u : Fin 1) :
    Host.dotGeneral (F := Ideal) (φ₁ := .f32) (φ₂ := .f32) dot_S4096x1024_S1024x1_S4096x1_1_0_0_1_n_n none l r (ix2 p u) = ∑ h : Fin 1024, l (ix2 p h) * r (ix2 h u) := by
  simp only [Host.dotGeneral]
  rw [Ideal.dotGeneral_apply]
  refine sum_contr dot_S4096x1024_S1024x1_S4096x1_1_0_0_1_n_n 1024 rfl rfl l r (ix2 p u) (fun h => ix2 p h) (fun h => ix2 h u) (fun h => ?_) (fun h => ?_)
  · have hk := contrEquiv1_symm_val dot_S4096x1024_S1024x1_S4096x1_1_0_0_1_n_n 1024 rfl rfl h
    exact funext fun a => Fin.ext (by
      match a with
      | ⟨0, _⟩ => exact hostdot_lhs0 _ _
      | ⟨1, _⟩ => exact (hostdot_lhs1 _ _).trans hk)
  · have hk := contrEquiv1_symm_val dot_S4096x1024_S1024x1_S4096x1_1_0_0_1_n_n 1024 rfl rfl h
    exact funext fun a => Fin.ext (by
      match a with
      | ⟨0, _⟩ => exact (hostdot_rhs0 _ _).trans hk
      | ⟨1, _⟩ => exact hostdot_rhs1 _ _)

/-! ### The two halves of `U`, and a column turned into a row -/

/-- The upper half of `U` reads row `h`. -/
theorem upper_slice_apply (U : FVec Ideal S2048x1 .f32) (h : Fin 1024) (u : Fin 1) :
    extractStridedSlice S1024x1 ![0, 0] U slices_S2048x1_S1024x1_0_0 (ix2 h u) = U (ix2 (upper h) u) :=
  extractStridedSlice_apply ![0, 0] U slices_S2048x1_S1024x1_0_0 (ix2 h u) (ix2 (upper h) u) (fun a => match a with
    | ⟨0, _⟩ => by show h.val = 0 + h.val; omega
    | ⟨1, _⟩ => by show u.val = 0 + u.val; omega)

/-- The lower half of `U` reads row `1024 + h`. -/
theorem lower_slice_apply (U : FVec Ideal S2048x1 .f32) (h : Fin 1024) (u : Fin 1) :
    extractStridedSlice S1024x1 ![1024, 0] U slices_S2048x1_S1024x1_1024_0 (ix2 h u) = U (ix2 (lower h) u) :=
  extractStridedSlice_apply ![1024, 0] U slices_S2048x1_S1024x1_1024_0 (ix2 h u) (ix2 (lower h) u) (fun a => match a with
    | ⟨0, _⟩ => by show 1024 + h.val = 1024 + h.val; omega
    | ⟨1, _⟩ => by show u.val = 0 + u.val; omega)

/-- The transpose of a column [4096, 1] reads, at (u, q), the column at (q, u). -/
theorem column_transposed_apply (y : FVec Ideal S4096x1 .f32) (u : Fin 1) (q : Fin 4096) :
    transpose S1x4096 [1, 0] y transposes_S4096x1_S1x4096_1_0 (ix2 u q) = y (ix2 q u) :=
  transpose_apply [1, 0] y transposes_S4096x1_S1x4096_1_0 (ix2 u q) (ix2 q u) (fun b => match b with
    | ⟨0, _⟩ => rfl
    | ⟨1, _⟩ => rfl)

/-! ### The three arrays as the region finds them -/

variable (m : (ℓ : Loc nD τ sig) → Buf (Elt Ideal) ℓ)

/-- The target's column is the host's product of `T` with the upper half of `U`. -/
theorem targetCol_eq (c : Dev nD) : (V m c main_v2 : S4096x1.Idx → EReal)
    = Host.dotGeneral (F := Ideal) (φ₁ := .f32) (φ₂ := .f32) dot_S4096x1024_S1024x1_S4096x1_1_0_0_1_n_n none (m ((c : Thread nD τ).loc main_arg0))
        (extractStridedSlice S1024x1 ![0, 0] (m ((c : Thread nD τ).loc main_arg3)) slices_S2048x1_S1024x1_0_0) := by
  dsimp only [Gen.V, Gen.hostOps0]; after_results <;> rfl

/-- The argument's row is the transposed host product of `A` with the lower half of `U`. -/
theorem argRow_eq (c : Dev nD) : (V m c main_v4 : S1x4096.Idx → EReal)
    = transpose S1x4096 [1, 0] (Host.dotGeneral (F := Ideal) (φ₁ := .f32) (φ₂ := .f32) dot_S4096x1024_S1024x1_S4096x1_1_0_0_1_n_n none (m ((c : Thread nD τ).loc main_arg1))
        (extractStridedSlice S1024x1 ![1024, 0] (m ((c : Thread nD τ).loc main_arg3)) slices_S2048x1_S1024x1_1024_0))
        transposes_S4096x1_S1x4096_1_0 := by
  dsimp only [Gen.V, Gen.hostOps0]; after_results <;> rfl

/-- The narrowed copy of `A` is `A`, entry by entry. -/
theorem argCopy_eq (c : Dev nD) : (V m c main_v5 : S4096x1024.Idx → EReal)
    = truncf (F := Ideal) (φ := .f32) .bf16 (m ((c : Thread nD τ).loc main_arg1)) bitsLt_bf16_f32 := by
  dsimp only [Gen.V, Gen.hostOps0]; after_results <;> rfl

/-- Entry (p, 0) of the target's column is the target's linear term at row `p`. -/
theorem targetCol_apply (c : Dev nD) (p : Fin 4096) :
    V m c main_v2 (ix2 p (0 : Fin 1))
      = targetTerm (m ((c : Thread nD τ).loc main_arg0)) (m ((c : Thread nD τ).loc main_arg3)) p := by
  rw [targetCol_eq, hostdot_apply]
  unfold targetTerm
  simp only [upper_slice_apply]

/-- Entry (0, q) of the argument's row is the argument's linear term at row `q`. -/
theorem argRow_apply (c : Dev nD) (q : Fin 4096) :
    V m c main_v4 (ix2 (0 : Fin 1) q)
      = argTerm (m ((c : Thread nD τ).loc main_arg1)) (m ((c : Thread nD τ).loc main_arg3)) q := by
  rw [argRow_eq, column_transposed_apply, hostdot_apply]
  unfold argTerm
  simp only [lower_slice_apply]

/-- Entry `i` of the narrowed copy of `A` is `A`'s. -/
theorem argCopy_apply (c : Dev nD) (i : S4096x1024.Idx) :
    V m c main_v5 i = m ((c : Thread nD τ).loc main_arg1) i := by
  rw [argCopy_eq]; rfl

end Cert.KernelIdeal.HostInputs

end
-- ==== Proof.Carry.lean ====
/-
  The scratch carried along a row of grid points, and the output tile of every point.

  The grid is walked row-major: the four column tiles of row tile 0, then of row tile 1, and so on. At the first column
  tile of a row tile the body stores `(T·W)` restricted to that row tile into the scratch; at the other three it leaves
  the scratch alone. So after ANY point `t` the scratch holds, at (p, k), `(T·W)[1024·(t/4) + p, k]` — by induction
  along the walk: a first column tile writes it, and a later one inherits it from the point before, which lies in the
  same row tile. The output tile of point `t` is then the body's arithmetic over that scratch, the argument-span tile
  and the two linear-term tiles, which at (p, q) is the score at row `1024·(t/4) + p`, column `1024·(t%4) + q`.
-/
import proofs.«151508_j24129126269150_2_alg».proof.Proof.Pieces
import proofs.«151508_j24129126269150_2_alg».proof.Proof.Payloads
import proofs.«151508_j24129126269150_2_alg».proof.Proof.Tiles
import proofs.«151508_j24129126269150_2_alg».proof.Proof.HostInputs
import proofs.«151508_j24129126269150_2_alg».proof.Proof.Spec

noncomputable section

namespace Cert.KernelIdeal.Carry

open Cert.KernelIdeal Cert.KernelIdeal.Gen Idealize.ShloMosaic Idealize.ShloMosaic.TcCoe Idealize.SL.Sem
open Idealize.ShloMosaic.ValueIdx Cert.Biaffine Cert.KernelIdeal.Tiles

variable (m : (ℓ : Loc nD τ sig) → Buf (Elt Ideal) ℓ)

/-! ### One point, by its case -/

/-- After a first-column point the scratch holds the product of that point's target-span tile with `W`. -/
theorem scratch_first_col (c : Dev nD) (t : Fin cfg0.N) (h0 : t.val % 4 = 0) :
    (outsAt0 m c t.val t.isLt).2 = k0_pay1 (iblk m c 0 t) (iblk m c 1 t) := by
  rw [outsAt0_A m c t h0]
  dsimp only
  exact Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)

/-- After any other point the scratch holds what the point before left. -/
theorem scratch_other_col (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- The output tile of a first-column point: the body's arithmetic over the product it has just stored. -/
theorem out_first_col (c : Dev nD) (t : Fin cfg0.N) (h0 : t.val % 4 = 0) :
    (outsAt0 m c t.val t.isLt).1
      = k0_pay2 (k0_pay1 (iblk m c 0 t) (iblk m c 1 t)) (iblk m c 2 t) (iblk m c 3 t) (iblk m c 4 t) (iblk m c 5 t) := by
  rw [outsAt0_A m c t h0]
  dsimp only
  exact Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)

/-- The output tile of any other point: the body's arithmetic over the scratch the point before left. -/
theorem out_other_col (c : Dev nD) (t : Fin cfg0.N) (h0 : ¬t.val % 4 = 0) :
    (outsAt0 m c t.val t.isLt).1
      = k0_pay2 (outsAt0 m c (t.val - 1) (Nat.lt_of_le_of_lt (Nat.sub_le _ _) t.isLt)).2
          (iblk m c 2 t) (iblk m c 3 t) (iblk m c 4 t) (iblk m c 5 t) := by
  rw [outsAt0_B m c t h0]
  dsimp only
  exact Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)).2

/-- In both cases: the output tile is the body's arithmetic over what the scratch holds AFTER the point. -/
theorem out_at (c : Dev nD) (t : Fin cfg0.N) :
    (outsAt0 m c t.val t.isLt).1
      = k0_pay2 (outsAt0 m c t.val t.isLt).2 (iblk m c 2 t) (iblk m c 3 t) (iblk m c 4 t) (iblk m c 5 t) := by
  by_cases h0 : t.val % 4 = 0
  · rw [out_first_col m c t h0, scratch_first_col m c t h0]
  · rw [out_other_col m c t h0, scratch_other_col m c t h0]

/-! ### The scratch along the walk -/

/-- After a first-column point the scratch holds `T·W` on that point's row tile. -/
theorem first_col_entry (c : Dev nD) (t : Fin cfg0.N) (h0 : t.val % 4 = 0) (p k : Fin 1024) :
    ((outsAt0 m c t.val t.isLt).2 : Vec Ideal S1024x1024 .bf16) (ix2 p k)
      = proj (m ((c : Thread nD τ).loc main_arg0)) (m ((c : Thread nD τ).loc main_arg2)) (rowOf t p) k := by
  rw [scratch_first_col m c t h0]
  refine (Payload.projected_apply (iblk m c 0 t) (iblk m c 1 t) p k).trans ?_
  unfold proj
  exact Finset.sum_congr rfl fun h _ =>
    congrArg₂ (· * ·) (target_tile m c t p h) (weight_tile m c t h k)

/-- After EVERY point the scratch holds `T·W` on that point's row tile. -/
theorem scratch_entry (c : Dev nD) : ∀ (n : ℕ) (hn : n < cfg0.N) (p k : Fin 1024),
    ((outsAt0 m c n hn).2 : Vec Ideal S1024x1024 .bf16) (ix2 p k)
      = proj (m ((c : Thread nD τ).loc main_arg0)) (m ((c : Thread nD τ).loc main_arg2)) (rowOf ⟨n, hn⟩ p) k := by
  intro n
  induction n with
  | zero => intro hn p k; exact first_col_entry m c ⟨0, hn⟩ rfl p k
  | succ n ih =>
    intro hn p k
    by_cases h0 : (n + 1) % 4 = 0
    · exact first_col_entry m c ⟨n + 1, hn⟩ h0 p k
    · refine (congrFun (scratch_other_col m c ⟨n + 1, hn⟩ h0) (ix2 p k)).trans ?_
      refine (ih (Nat.lt_of_succ_lt hn) p k).trans ?_
      refine congrArg (fun r => proj _ _ r k) (Fin.ext ?_)
      show 1024 * (n / 4) + p.val = 1024 * ((n + 1) / 4) + p.val
      omega

/-! ### The output tile, entry by entry -/

/-- Entry (p, q) of the output tile of point `t` is the score at row `1024·(t/4) + p`, column `1024·(t%4) + q`. -/
theorem out_entry (c : Dev nD) (t : Fin cfg0.N) (p q : Fin 1024) :
    ((outsAt0 m c t.val t.isLt).1 : Vec Ideal S1024x1024 .f32) (ix2 p q)
      = scoreAt (m ((c : Thread nD τ).loc main_arg0)) (m ((c : Thread nD τ).loc main_arg1)) (m ((c : Thread nD τ).loc main_arg2)) (m ((c : Thread nD τ).loc main_arg3)) (m ((c : Thread nD τ).loc main_arg4)) (rowOf t p) (colOf t q) := by
  rw [out_at m c t]
  refine (Payload.output_apply (outsAt0 m c t.val t.isLt).2 (iblk m c 2 t) (iblk m c 3 t) (iblk m c 4 t) (iblk m c 5 t) p q).trans ?_
  unfold scoreAt bilinear
  refine congrArg₂ (· + ·) (congrArg₂ (· + ·)
    (Finset.sum_congr rfl fun k _ => congrArg₂ (· * ·) (scratch_entry m c t.val t.isLt p k) ?_)
    (congrArg₂ (· + ·) ?_ ?_)) (bias_tile m c t)
  · exact (argument_tile m c t q k).trans (HostInputs.argCopy_apply m c _)
  · exact (target_column_tile m c t p).trans (HostInputs.targetCol_apply m c _)
  · exact (argument_row_tile m c t q).trans (HostInputs.argRow_apply m c _)

end Cert.KernelIdeal.Carry

end
-- ==== Proof.Result.lean ====
/-
  From the sixteen output tiles to the whole result array.

  Every grid point writes its output tile back, and point `t` writes rows `1024·(t/4) … 1024·(t/4) + 1023`, columns
  `1024·(t%4) … 1024·(t%4) + 1023`. Each tile is the score restricted to those rows and columns, and the sixteen
  tiles cover the [4096, 4096] array: entry (r, s) lies in the tile of point `4·(r / 1024) + s / 1024`. So after the
  run the result array IS the score of the argument arrays, and the run leaves the argument arrays as they were.
-/
import proofs.«151508_j24129126269150_2_alg».proof.Proof.Carry
import proofs.«151508_j24129126269150_2_alg».proof.Proof.Gen.KernelIdeal.Value

noncomputable section

namespace Cert.KernelIdeal.Result

open Cert.KernelIdeal Cert.KernelIdeal.Gen Idealize.ShloMosaic Idealize.ShloMosaic.TcCoe Idealize.SL.Sem
open Idealize.ShloMosaic.ValueIdx Cert.Biaffine Cert.KernelIdeal.Tiles
open Idealize.ShloMosaic.Pipeline (Dat)

variable (m : (ℓ : Loc nD τ sig) → Buf (Elt Ideal) ℓ) (ρ : Dev nD → PrngReg)

/-- What the result array ends holding: the score of the argument arrays. -/
def result (c : Dev nD) : Buf (Elt Ideal) ((c : Thread nD τ).loc main_v6) :=
  score (m ((c : Thread nD τ).loc main_arg0)) (m ((c : Thread nD τ).loc main_arg1)) (m ((c : Thread nD τ).loc main_arg2)) (m ((c : Thread nD τ).loc main_arg3)) (m ((c : Thread nD τ).loc main_arg4))

/-- What point `t` writes back is the score on its tile. -/
theorem flushed_eq (c : Dev nD) (t : Fin cfg0.N) :
    (dats m 0 c).flushed 6 t = ((cfg0.win 6).blk t).view.read (Elt Ideal) (result m c) := by
  obtain ⟨-, -, -, -, -, -, -, -, -, -, -, e0, e1⟩ := block_indices t
  rw [Value.flushed6]
  have key : ∀ y : S1024x1024.Idx, ((outsAt0 m c t.val t.isLt).1 : Vec Ideal S1024x1024 .f32) y
      = result m c (((cfg0.win 6).blk t).view.emb y) := by
    intro y
    obtain ⟨p, q, rfl⟩ : ∃ (p q : Fin 1024), y = ix2 p q := ⟨y 0, y 1, eq_ix2 y⟩
    rw [Carry.out_entry m c t p q]
    show scoreAt _ _ _ _ _ (rowOf t p) (colOf t q)
      = scoreAt _ _ _ _ _ ((((cfg0.win 6).blk t).view.emb (ix2 p q)) 0) ((((cfg0.win 6).blk t).view.emb (ix2 p q)) 1)
    congr 1 <;> apply Fin.ext
    · show 1024 * (t.val / 4) + p.val = win0_6.index t (0 : Fin 2) * 1024 + 1 * p.val
      rw [e0]; omega
    · show 1024 * (t.val % 4) + q.val = win0_6.index t (1 : Fin 2) * 1024 + 1 * q.val
      rw [e1]; omega
  funext y
  exact key y

/-- An entry of the result array is in point `t`'s tile iff each coordinate is in the tile's range on its axis. -/
theorem mem_tile (t : Fin cfg0.N) (i : S4096x4096.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v6).slice (win0_6.rect t)).set ↔ _
  rw [View.set_slice_whole, Rect.mem_set_unit]
  exact Iff.rfl

/-- The sixteen tiles cover the result array. -/
theorem covered (i : S4096x4096.Idx) :
    ∃ t : Fin cfg0.N, (cfg0.win 6).flush t = true ∧ i ∈ ((cfg0.win 6).blk t).view.set := by
  have h0 : (i 0).val < 4096 := (i 0).isLt
  have h1 : (i 1).val < 4096 := (i 1).isLt
  have hN : cfg0.N = 16 := N_0
  have ht : 4 * ((i 0).val / 1024) + (i 1).val / 1024 < cfg0.N := by omega
  obtain ⟨-, -, -, -, -, -, -, -, -, -, -, e0, e1⟩ :=
    block_indices ⟨4 * ((i 0).val / 1024) + (i 1).val / 1024, ht⟩
  refine ⟨⟨4 * ((i 0).val / 1024) + (i 1).val / 1024, ht⟩, flush0_6 _, ?_⟩
  rw [mem_tile]
  intro a
  match a with
  | ⟨0, _⟩ =>
    show win0_6.index ⟨4 * ((i 0).val / 1024) + (i 1).val / 1024, ht⟩ (0 : Fin 2) * 1024 ≤ (i 0).val
      ∧ (i 0).val < win0_6.index ⟨4 * ((i 0).val / 1024) + (i 1).val / 1024, ht⟩ (0 : Fin 2) * 1024 + 1024
    rw [e0]
    show (4 * ((i 0).val / 1024) + (i 1).val / 1024) / 4 * 1024 ≤ (i 0).val
      ∧ (i 0).val < (4 * ((i 0).val / 1024) + (i 1).val / 1024) / 4 * 1024 + 1024
    omega
  | ⟨1, _⟩ =>
    show win0_6.index ⟨4 * ((i 0).val / 1024) + (i 1).val / 1024, ht⟩ (1 : Fin 2) * 1024 ≤ (i 1).val
      ∧ (i 1).val < win0_6.index ⟨4 * ((i 0).val / 1024) + (i 1).val / 1024, ht⟩ (1 : Fin 2) * 1024 + 1024
    rw [e1]
    show (4 * ((i 0).val / 1024) + (i 1).val / 1024) % 4 * 1024 ≤ (i 1).val
      ∧ (i 1).val < (4 * ((i 0).val / 1024) + (i 1).val / 1024) % 4 * 1024 + 1024
    omega

/-- After the run the result array is the score of the argument arrays. -/
theorem final (c : Dev nD) : (dats m 0 c).arrAt 6 cfg0.N = result m c :=
  (dats m 0 c).arrAt_eq_of_cover 6 (result m c) (fun t _ => flushed_eq m c t) covered

/-- The kernel's run at the ideal values: every weakly fair execution terminates with the result array at the score
    of the argument arrays, and the argument arrays unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.lean ====
/-
  A fused biaffine scorer against its plain reference, on the extended reals.

  Both programs take target spans T and argument spans A, [4096, 1024] each, a weight W [1024, 1024], a column
  U [2048, 1] and a bias b [1], and produce the [4096, 4096] array whose entry (p, q) is

      ( Σ_k (T·W)[p, k] · A[q, k]  +  ( Σ_h T[p, h] · U[h, 0]  +  Σ_h A[q, h] · U[1024 + h, 0] ) )  +  b[0].

  The reference computes it with whole-array operations: two matrix products (the second against the transpose of A),
  two matrix-vector products with the halves of U, and broadcast additions. The kernel tiles the result 4 × 4 and walks
  the tiles row-major; at the first column tile of each row tile it multiplies the target-span tile by W into a
  scratch buffer, which the three remaining column tiles of that row reuse; every tile then contracts the scratch
  with an argument-span tile along their shared second axis and adds the two linear terms (computed beforehand on
  the host) and the bias. At the ideal values changes of float format are the identity and a matrix product is the
  plain sum of products, so the two programs compute the same function with the additions grouped the same way:
  no law that could fail at an infinite entry is used, and the precondition is never opened.

  The pieces: `Cert.Biaffine.score` states the function; the reference's stages compose to it
  (`Cert.ReferenceIdeal.RefValue.result_eq_score`); the scratch holds `T·W` on the current row tile after every grid
  point, by induction along the walk (`Cert.KernelIdeal.Carry.scratch_entry`); each output tile is the score on its rows
  and columns (`Carry.out_entry`), and the sixteen tiles cover the array (`Cert.KernelIdeal.Result.final`). The three
  frame claims are the generated runs; the idealization rewrote nothing, so there is nothing to preserve.
-/
import proofs.«151508_j24129126269150_2_alg».proof.Defs
import proofs.«151508_j24129126269150_2_alg».proof.Proof.Gen.Kernel
import proofs.«151508_j24129126269150_2_alg».proof.Proof.Gen.Kernel.Skeleton
import proofs.«151508_j24129126269150_2_alg».proof.Proof.Gen.Kernel.Launch
import proofs.«151508_j24129126269150_2_alg».proof.Proof.Gen.Kernel.Points
import proofs.«151508_j24129126269150_2_alg».proof.Proof.Gen.Kernel.Frame
import proofs.«151508_j24129126269150_2_alg».proof.Proof.Gen.KernelIdeal
import proofs.«151508_j24129126269150_2_alg».proof.Proof.Gen.KernelIdeal.Skeleton
import proofs.«151508_j24129126269150_2_alg».proof.Proof.Gen.KernelIdeal.Launch
import proofs.«151508_j24129126269150_2_alg».proof.Proof.Gen.KernelIdeal.Points
import proofs.«151508_j24129126269150_2_alg».proof.Proof.Gen.KernelIdeal.Frame
import proofs.«151508_j24129126269150_2_alg».proof.Proof.Gen.ReferenceIdeal
import proofs.«151508_j24129126269150_2_alg».proof.Proof.Gen.Pre_finite_inputs
import proofs.«151508_j24129126269150_2_alg».proof.Proof.Gen.KernelIdeal.Value
import proofs.«151508_j24129126269150_2_alg».proof.Proof.Gen.ReferenceIdeal.Run
import proofs.«151508_j24129126269150_2_alg».proof.Proof.Gen.ReferenceIdeal.Read
import proofs.«151508_j24129126269150_2_alg».proof.Proof.RefScore
import proofs.«151508_j24129126269150_2_alg».proof.Proof.Result
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the score of those arguments in their
    result arrays: the kernel tile by tile, the reference by its composed stages. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq_score,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
